-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4 : Shape := ⟨2, ![4096, 4]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_

variable [Facts]

def fn {F : FTy → Type} [FloatOps F] (main_arg0 : FVec F S8192x4096 .f32) (main_arg1 : FVec F S4096x4 .f32) (main_arg2 : FVec F S4096x4 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4 .f32 := Host.absf main_arg1
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4096x4 .f32 := Host.absf main_arg2
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Kernel.lean ====
abbrev S8192x4096 : Shape := ⟨2, ![8192, 4096]⟩
abbrev S4096x4 : Shape := ⟨2, ![4096, 4]⟩
abbrev S4x4096 : Shape := ⟨2, ![4, 4096]⟩
abbrev S512x4096 : Shape := ⟨2, ![512, 4096]⟩
abbrev S512x4 : Shape := ⟨2, ![512, 4]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4, .f32⟩
  | .hbm, ⟨2, _⟩ => ⟨S4096x4, .f32⟩
  | .hbm, ⟨3, _⟩ => ⟨S4x4096, .f32⟩
  | .hbm, ⟨4, _⟩ => ⟨S4x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4x4096, .f32⟩
  | .local _ .vmem, ⟨3, _⟩ => ⟨S4x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x4_S4x4096_1_0 : S4096x4.Transposes [1, 0] S4x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  dot_S512x4096_S4x4096_S512x4_1_1_0_0_n_n_wf : DotDims.WF S512x4096 S4x4096 S512x4 [1] [1] [0] [0] [] []
  dot_S512x4_S4x4096_S512x4096_1_0_0_1_n_n_wf : DotDims.WF S512x4 S4x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x4096.size a
  hwx0_1 : ∀ i : grid0.Coords, EltTy.bits .f32 = 32 ∨ (Rect.block (s := S4x4096) S4x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x4096_S4x4096_S512x4_1_1_0_0_n_n : DotDims S512x4096 S4x4096 S512x4 where
  lhsContracting := [1]
  rhsContracting := [1]
  lhsNonContracting := [0]
  rhsNonContracting := [0]
  lhsBatch := []
  rhsBatch := []
  wf := dot_S512x4096_S4x4096_S512x4_1_1_0_0_n_n_wf
def dot_S512x4_S4x4096_S512x4096_1_0_0_1_n_n : DotDims S512x4 S4x4096 S512x4096 where
  lhsContracting := [1]
  rhsContracting := [0]
  lhsNonContracting := [0]
  rhsNonContracting := [1]
  lhsBatch := []
  rhsBatch := []
  wf := dot_S512x4_S4x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4 : Shape := ⟨2, ![4096, 4]⟩
abbrev S4x4096 : Shape := ⟨2, ![4, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4, .f32⟩
  | .hbm, ⟨2, _⟩ => ⟨S4096x4, .f32⟩
  | .hbm, ⟨3, _⟩ => ⟨S4x4096, .f32⟩
  | .hbm, ⟨4, _⟩ => ⟨S4096x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4_S4x4096_1_0 : S4096x4.Transposes [1, 0] S4x4096
  bcast_S_S8192x4096 : S_.BroadcastsInDim S8192x4096 (![] : Fin 0 → Fin S8192x4096.rank)
  dot_S4096x4_S4x4096_S4096x4096_1_0_0_1_n_n_wf : DotDims.WF S4096x4 S4x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.FastWeightSpec.lean ====
/-
  The rank-four fast-weight update as one function of its three arrays, in two arrangements.

  With x an [8192, 4096] array of activations and U, V two [4096, 4] factors, the update adds to x its product with
  the rank-four matrix U·Vᵀ. Entry (p, f) of the result is

      x(p, f) + c · Σ_d Σ_r x(p, d) · U(d, r) · V(f, r),

  where c is the value of one fixed 32-bit word (the scale). The double sum can be grouped in two ways:

    * FACTORED — first the four projections t(p, r) = Σ_d x(p, d) · U(d, r) of row p, then Σ_r t(p, r) · V(f, r):
      two thin products, never forming the 4096 × 4096 matrix;
    * DENSE — first the matrix M(d, f) = Σ_r U(d, r) · V(f, r), then Σ_d x(p, d) · M(d, f).

  On the extended reals a product does not distribute over a sum at the infinities, so the two groupings are equal
  only where the entries are real numbers; that is the one law of this module, and its proof is the interchange of
  the two finite sums over the reals.
-/
import Idealize.ShloMosaic.PureOps.Ideal
import Idealize.ShloMosaic.Lib.ValueIdx
import proofs.«110024_j82094004896067_2_alg».proof.Proof.LibSumAssoc

noncomputable section

namespace Cert.FastWeights

open Idealize.ShloMosaic Idealize.ShloMosaic.ValueIdx

/-- The factored arrangement: row p of x is first projected on the four columns of U, and the four projections are then
    spread along row f of V. -/
def factored (x : FVec Ideal ⟨2, ![8192, 4096]⟩ .f32) (u v : FVec Ideal ⟨2, ![4096, 4]⟩ .f32) :
    FVec Ideal ⟨2, ![8192, 4096]⟩ .f32 := fun i =>
  x i + Ideal.ofBits .f32 0x3F800000#32 *
    ∑ r : Fin 4, (∑ d : Fin 4096, x (ix2 (i 0 : Fin 8192) d) * u (ix2 d r)) * v (ix2 (i 1 : Fin 4096) r)

/-- The dense arrangement: the rank-four matrix U·Vᵀ is formed entry by entry, and row p of x is multiplied with its
    column f. -/
def dense (x : FVec Ideal ⟨2, ![8192, 4096]⟩ .f32) (u v : FVec Ideal ⟨2, ![4096, 4]⟩ .f32) :
    FVec Ideal ⟨2, ![8192, 4096]⟩ .f32 := fun i =>
  x i + Ideal.ofBits .f32 0x3F800000#32 *
    ∑ d : Fin 4096, x (ix2 (i 0 : Fin 8192) d) * ∑ r : Fin 4, u (ix2 d r) * v (ix2 (i 1 : Fin 4096) r)

/-- Where every entry of the three arrays is a real number the two arrangements agree: (x · U) · Vᵀ = x · (U · Vᵀ),
    entry by entry. The scale and the added x(p, f) are the same on both sides and are not opened. -/
theorem factored_eq_dense (x : FVec Ideal ⟨2, ![8192, 4096]⟩ .f32) (u v : FVec Ideal ⟨2, ![4096, 4]⟩ .f32)
    (hx : ∀ i, ∃ r : ℝ, x i = r) (hu : ∀ i, ∃ r : ℝ, u i = r) (hv : ∀ i, ∃ r : ℝ, v i = r) :
    factored x u v = dense x u v := by
  funext i
  unfold factored dense
  refine congrArg (fun s => x i + Ideal.ofBits .f32 0x3F800000#32 * s) ?_
  exact ERealSums.sum_mul_sum_assoc (fun d : Fin 4096 => x (ix2 (i 0 : Fin 8192) d)) (fun (d : Fin 4096) (r : Fin 4) => u (ix2 d r))
    (fun r : Fin 4 => v (ix2 (i 1 : Fin 4096) r)) (fun d => hx _) (fun d r => hu _) (fun r => hv _)

end Cert.FastWeights

end
-- ==== Proof.FiniteEntries.lean ====
/-
  The precondition says every entry of the three arrays is a real number.

  The precondition is the conjunction, over the three arrays, of "every entry a satisfies |a| < +∞", each a reduction
  by "and" over the whole array of the entrywise comparison. On the extended reals |a| is max(a, −a) and the word
  0x7F800000 is +∞; max(a, −a) is +∞ exactly at the two infinities, so |a| < +∞ says a is the image of a real number.
-/
import proofs.«110024_j82094004896067_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.FiniteEntries

open Idealize.ShloMosaic Idealize.ShloMosaic.ValueIdx Cert.Pre_finite_inputs

/-- The word 0x7F800000 is +∞. -/
theorem inf_word : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = r := by
  rw [inf_word] at h
  have hlt : max x (-x) < ⊤ := by
    unfold Ideal.cmp at h
    by_contra hn
    simp [hn] at h
  induction x using EReal.rec with
  | bot => simp at hlt
  | top => simp at hlt
  | coe r => exact ⟨r, rfl⟩

/-- The scalar shape has one index. -/
instance : Subsingleton S_.Idx := ⟨fun _ _ => funext fun d => d.elim0⟩

variable [Cert.Pre_finite_inputs.Facts]

/-- The precondition, all ones, gives real entries in each of the three arrays. -/
theorem entries_real (a0 : FVec Ideal S8192x4096 .f32) (a1 a2 : FVec Ideal S4096x4 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => real_of_abs_lt_inf (a0 i) ?_, fun i => real_of_abs_lt_inf (a1 i) ?_, fun i => real_of_abs_lt_inf (a2 i) ?_⟩
  · exact Host.reduce_andi_all _ _ _ _ ix0 h0' i
  · exact Host.reduce_andi_all _ _ _ _ ix0 h1 i
  · exact Host.reduce_andi_all _ _ _ _ ix0 h2 i

end Cert.FiniteEntries

end
-- ==== Proof.ReferenceDense.lean ====
/-
  The reference program computes the dense arrangement.

  The reference transposes V, forms the 4096 × 4096 matrix M = U · Vᵀ with one matrix product, multiplies x with M,
  scales by the constant and adds x. Read at an index (p, f), with each matrix product an inner product over its one
  contracted axis, that is x(p, f) + c · Σ_d x(p, d) · Σ_r U(d, r) · V(f, r): the dense arrangement. Nothing here uses
  finiteness: only the index bookkeeping of the transpose and of the two products is checked.
-/
import proofs.«110024_j82094004896067_2_alg».proof.Proof.Gen.ReferenceIdeal.Read
import proofs.«110024_j82094004896067_2_alg».proof.Proof.FastWeightSpec

noncomputable section

namespace Cert.ReferenceIdeal.DenseValue

open Cert.ReferenceIdeal Cert.ReferenceIdeal.Gen Cert.ReferenceIdeal.Read Idealize.ShloMosaic Idealize.ShloMosaic.ValueIdx

/-- The outer product's left operand at (p, f), term d of the contraction: x at (p, d). -/
theorem outer_left (i : S8192x4096.Idx) (d : Fin 4096) : lidx_main_v2 i d = ix2 (i 0 : Fin 8192) d :=
  funext fun a => by match a with | ⟨0, _⟩ => rfl | ⟨1, _⟩ => rfl

/-- The inner product (the matrix M at (d, f)), term r: its left operand is U at (d, r). -/
theorem inner_left (i : S8192x4096.Idx) (d : Fin 4096) (r : Fin 4) : lidx_main_v1 (ridx_main_v2 i d) r = ix2 d r :=
  funext fun a => by match a with | ⟨0, _⟩ => rfl | ⟨1, _⟩ => rfl

/-- Its right operand is the transposed V at (r, f), which is V at (f, r). -/
theorem inner_right (i : S8192x4096.Idx) (d : Fin 4096) (r : Fin 4) :
    idx_main_v0 (ridx_main_v1 (ridx_main_v2 i d) r) = ix2 (i 1 : Fin 4096) r :=
  funext fun a => by match a with | ⟨0, _⟩ => rfl | ⟨1, _⟩ => rfl

/-- The reference's result, as a function of its three arguments, is the dense arrangement. -/
theorem result_eq_dense (x0 : (⟨S8192x4096, .f32⟩ : BufTy).Contents (Elt Ideal)) (x1 x2 : (⟨S4096x4, .f32⟩ : BufTy).Contents (Elt Ideal)) :
    val_main_v5 (F := Ideal) x0 x1 x2 = Cert.FastWeights.dense x0 x1 x2 := by
  funext i
  rw [val_main_v5_apply, val_main_v4_apply, val_main_v3_apply, val_main_cst_apply, val_main_v2_apply]
  unfold Cert.FastWeights.dense
  simp only [Ideal.addf_def, Ideal.mulf_def, Ideal.ofBits_def]
  refine congrArg (fun s => x0 i + Ideal.ofBits .f32 0x3F800000#32 * s) ?_
  refine Finset.sum_congr rfl fun d _ => ?_
  rw [val_main_v1_apply, outer_left]
  refine congrArg (fun s => x0 (ix2 (i 0 : Fin 8192) d) * s) ?_
  refine Finset.sum_congr rfl fun r _ => ?_
  rw [val_main_v0_apply, inner_left, inner_right]
  rfl

end Cert.ReferenceIdeal.DenseValue

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.RowBlockPayload.lean ====
/-
  What the kernel body computes for one block of 512 rows, read at an index.

  The body holds a [512, 4096] block of x and the two transposed factors Uᵀ, Vᵀ as [4, 4096] arrays. It multiplies the
  block with Uᵀ, rows against rows, into a [512, 4] array of projections; multiplies that with Vᵀ into a [512, 4096]
  array; scales by the constant and adds the block. On the extended reals the changes of float format on the way into
  each product are the identity, a cast of an array to its own shape is the identity, and a product accumulated into
  zero is the plain inner product over the contracted axis. So entry (p, f) of the body's result is

      x(p, f) + c · Σ_r (Σ_d x(p, d) · Uᵀ(r, d)) · Vᵀ(r, f).
-/
import proofs.«110024_j82094004896067_2_alg».proof.Proof.Gen.KernelIdeal.Skeleton
import proofs.«110024_j82094004896067_2_alg».proof.Proof.LibRowDots
import proofs.«110024_j82094004896067_2_alg».proof.Proof.LibInnerProducts
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx

/-- The first product contracts the last axis of both operands: rows of the block against rows of Uᵀ. -/
theorem projections_dims :
    dot_S512x4096_S4x4096_S512x4_1_1_0_0_n_n = Cert.LibRowDots.rows dot_S512x4096_S4x4096_S512x4_1_1_0_0_n_n_wf := rfl

/-- The second product is a plain one: columns of the projections against rows of Vᵀ. -/
theorem spread_dims : dot_S512x4_S4x4096_S512x4096_1_0_0_1_n_n = DotDims.plain 512 4 4096 := rfl

/-- The projections of the block's rows: entry (p, r) is the inner product of row p of the block with row r of Uᵀ. -/
theorem projections_apply (x : FVec Ideal S512x4096 .bf16) (ut : FVec Ideal S4x4096 .bf16) (p : Fin 512) (r : Fin 4) :
    matmul dot_S512x4096_S4x4096_S512x4_1_1_0_0_n_n none x ut (constant (F := Ideal) S512x4 .f32 0x00000000#32) (ix2 p r)
      = ∑ d : Fin 4096, x (ix2 p d) * ut (ix2 r d) :=
  Cert.LibRowDots.matmul_rows dot_S512x4096_S4x4096_S512x4_1_1_0_0_n_n_wf dot_S512x4096_S4x4096_S512x4_1_1_0_0_n_n
    projections_dims none x ut p r

/-- The four projections spread along Vᵀ: entry (p, f) is the sum over r of projection (p, r) times Vᵀ(r, f). -/
theorem spread_apply (t : FVec Ideal S512x4 .bf16) (vt : FVec Ideal S4x4096 .bf16) (p : Fin 512) (f : Fin 4096) :
    matmul dot_S512x4_S4x4096_S512x4096_1_0_0_1_n_n none t vt (constant (F := Ideal) S512x4096 .f32 0x00000000#32) (ix2 p f)
      = ∑ r : Fin 4, t (ix2 p r) * vt (ix2 r f) :=
  InnerProducts.matmul_zero_apply dot_S512x4_S4x4096_S512x4096_1_0_0_1_n_n spread_dims none t vt p f

/-- The body's stored value at (p, f), from the block of x (loaded twice: once for the products, once for the final
    addition) and the two transposed factors. -/
theorem payload_apply (x : Vec Ideal S512x4096 .f32) (ut vt : Vec Ideal S4x4096 .f32) (p : Fin 512) (f : Fin 4096) :
    k0_pay1 (F := Ideal) x ut vt x (ix2 p f)
      = x (ix2 p f) + Ideal.ofBits .f32 0x3F800000#32 *
          ∑ r : Fin 4, (∑ d : Fin 4096, x (ix2 p d) * ut (ix2 r d)) * vt (ix2 r f) := by
  unfold k0_pay1
  simp only [shapeCast_self]
  show x (ix2 p f) + Ideal.ofBits .f32 0x3F800000#32 *
      matmul (φ₁ := .bf16) (φ₂ := .bf16) dot_S512x4_S4x4096_S512x4096_1_0_0_1_n_n none
        (matmul (φ₁ := .bf16) (φ₂ := .bf16) dot_S512x4096_S4x4096_S512x4_1_1_0_0_n_n none x ut (constant (F := Ideal) S512x4 .f32 0x00000000#32))
        vt (constant (F := Ideal) S512x4096 .f32 0x00000000#32) (ix2 p f) = _
  refine congrArg (fun s => x (ix2 p f) + Ideal.ofBits .f32 0x3F800000#32 * s) ?_
  refine (spread_apply _ vt p f).trans ?_
  exact Finset.sum_congr rfl fun r _ => congrArg (fun s => s * vt (ix2 r f)) (projections_apply x ut p r)

end Cert.KernelIdeal.BlockValue

end
-- ==== Proof.RowBlocks.lean ====
/-
  From the sixteen row blocks to the whole array.

  The kernel runs over sixteen grid points. At point t it is handed rows 512·t … 512·t + 511 of x (all 4096 columns),
  the whole of Uᵀ and the whole of Vᵀ, and writes rows 512·t … 512·t + 511 of the result. Uᵀ and Vᵀ are the transposes
  of U and V, made once before the sixteen points run, so Uᵀ(r, d) = U(d, r) and Vᵀ(r, f) = V(f, r).

  A row of the factored arrangement depends only on the same row of x, so what point t writes is exactly block t of
  the factored arrangement of the whole arrays; the sixteen blocks are disjoint and fill the 8192 rows (row P lies in
  block P / 512), hence after the run the result array IS the factored arrangement of x, U and V.
-/
import proofs.«110024_j82094004896067_2_alg».proof.Proof.Gen.KernelIdeal.Value
import proofs.«110024_j82094004896067_2_alg».proof.Proof.RowBlockPayload
import proofs.«110024_j82094004896067_2_alg».proof.Proof.FastWeightSpec
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One point, over plain arrays -/

/-- If a block holds row P of x in its row p, and the two small arrays are the transposes of U and V, then the body's
    value at (p, f) is the factored arrangement at (P, f). -/
theorem point_value (X : FVec Ideal ⟨2, ![8192, 4096]⟩ .f32) (u v : FVec Ideal ⟨2, ![4096, 4]⟩ .f32)
    (xb : Vec Ideal S512x4096 .f32) (ub vb : Vec Ideal S4x4096 .f32) (P : Fin 8192) (p : Fin 512) (f : Fin 4096)
    (hx : ∀ d : Fin 4096, xb (ix2 p d) = X (ix2 P d))
    (hu : ∀ (r : Fin 4) (d : Fin 4096), ub (ix2 r d) = u (ix2 d r))
    (hv : ∀ (r : Fin 4) (d : Fin 4096), vb (ix2 r d) = v (ix2 d r)) :
    k0_pay1 (F := Ideal) xb ub vb xb (ix2 p f) = Cert.FastWeights.factored X u v (ix2 P f) := by
  rw [BlockValue.payload_apply]
  unfold Cert.FastWeights.factored
  simp only [hx, hu, hv]

/-- A transposed [4096, 4] array at (r, d) is the array at (d, r). -/
theorem transposed_apply (w : FVec Ideal S4096x4 .f32) (r : Fin 4) (d : Fin 4096) :
    transpose S4x4096 [1, 0] w transposes_S4096x4_S4x4096_1_0 (ix2 r d) = w (ix2 d r) :=
  transpose_apply [1, 0] w transposes_S4096x4_S4x4096_1_0 (ix2 r d) (ix2 d r) (fun b => match b with
    | ⟨0, _⟩ => rfl
    | ⟨1, _⟩ => rfl)

/-! ## The arrays the sixteen points find -/

/-- The second operand of the sixteen points is the transpose of U, made before they run. -/
theorem found_ut (c : Dev nD) :
    (V m c main_call0_v0 : S4x4096.Idx → EReal)
      = transpose S4x4096 [1, 0] (m ((c : Thread nD τ).loc main_arg1)) transposes_S4096x4_S4x4096_1_0 := by
  dsimp only [Gen.V, Gen.hostOps0]; after_results; rfl

/-- The third operand is the transpose of V. -/
theorem found_vt (c : Dev nD) :
    (V m c main_call0_v1 : S4x4096.Idx → EReal)
      = transpose S4x4096 [1, 0] (m ((c : Thread nD τ).loc main_arg2)) transposes_S4096x4_S4x4096_1_0 := by
  dsimp only [Gen.V, Gen.hostOps0]; after_results; rfl

/-! ## Where each point's blocks sit -/

theorem origin : (![0, 0] : Fin 2 → Nat) = fun _ => 0 := funext fun a => by fin_cases a <;> rfl

/-- The block indices, decided over the sixteen points: the block of x moves with the output's block down the rows,
    both at column block 0; the two transposed factors are always taken whole. -/
theorem block_indices : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 :=
  (by decide +kernel : ∀ t : Fin grid0.N, _)

/-- Every one of the sixteen row blocks is some point's. -/
theorem every_block : ∀ q : Fin 16, ∃ t : Fin cfg0.N, win0_3.index t = ![q.val, 0] :=
  (by decide +kernel : ∀ q : Fin 16, ∃ t : Fin grid0.N, win0_3.index t = ![q.val, 0])

/-- Row p of point t's block of x is row P of x, where P = 512 · (the output's row block) + p. -/
theorem read_x (c : Dev nD) (t : Fin cfg0.N) (p : Fin 512) (d : Fin 4096) (P : Fin 8192)
    (hP : P.val = win0_3.index t (0 : Fin 2) * 512 + p.val) :
    iblk m c 0 t (ix2 p d) = m ((c : Thread nD τ).loc main_arg0) (ix2 P d) := by
  show V m c main_arg0 (((cfg0.win 0).blk t).view.emb (ix2 p d)) = _
  rw [V_main_arg0]
  refine congrArg _ (funext fun a => Fin.ext ?_)
  obtain ⟨e0, e1, e2, e3, e4, e5, e6, e7⟩ := block_indices t
  match a with
  | ⟨0, _⟩ => show win0_0.index t (0 : Fin 2) * 512 + 1 * p.val = P.val; omega
  | ⟨1, _⟩ => show win0_0.index t (1 : Fin 2) * 4096 + 1 * d.val = d.val; omega

/-- Point t's block of the second operand is the whole transpose of U. -/
theorem read_ut (c : Dev nD) (t : Fin cfg0.N) (r : Fin 4) (d : Fin 4096) :
    iblk m c 1 t (ix2 r d) = m ((c : Thread nD τ).loc main_arg1) (ix2 d r) := by
  show V m c main_call0_v0 (((cfg0.win 1).blk t).view.emb (ix2 r d)) = _
  have e : ((cfg0.win 1).blk t).view.emb (ix2 r d) = ix2 r d := by
    refine funext fun a => Fin.ext ?_
    obtain ⟨e0, e1, e2, e3, e4, e5, e6, e7⟩ := block_indices t
    match a with
    | ⟨0, _⟩ => show win0_1.index t (0 : Fin 2) * 4 + 1 * r.val = r.val; omega
    | ⟨1, _⟩ => show win0_1.index t (1 : Fin 2) * 4096 + 1 * d.val = d.val; omega
  rw [e, found_ut]
  exact transposed_apply _ r d

/-- Point t's block of the third operand is the whole transpose of V. -/
theorem read_vt (c : Dev nD) (t : Fin cfg0.N) (r : Fin 4) (d : Fin 4096) :
    iblk m c 2 t (ix2 r d) = m ((c : Thread nD τ).loc main_arg2) (ix2 d r) := by
  show V m c main_call0_v1 (((cfg0.win 2).blk t).view.emb (ix2 r d)) = _
  have e : ((cfg0.win 2).blk t).view.emb (ix2 r d) = ix2 r d := by
    refine funext fun a => Fin.ext ?_
    obtain ⟨e0, e1, e2, e3, e4, e5, e6, e7⟩ := block_indices t
    match a with
    | ⟨0, _⟩ => show win0_2.index t (0 : Fin 2) * 4 + 1 * r.val = r.val; omega
    | ⟨1, _⟩ => show win0_2.index t (1 : Fin 2) * 4096 + 1 * d.val = d.val; omega
  rw [e, found_vt]
  exact transposed_apply _ r d

/-! ## What a point writes, and the array after the run -/

/-- WHAT POINT t WRITES BACK is block t of the factored arrangement of the three argument arrays. -/
theorem flushed_eq (c : Dev nD) (t : Fin cfg0.N) :
    (dats m 0 c).flushed 3 t = ((cfg0.win 3).blk t).view.read (Elt Ideal)
      (Cert.FastWeights.factored (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S512x4096) origin, View.ld_unit_zero (S := S4x4096) origin]
  funext j
  obtain ⟨p, f, rfl⟩ : ∃ (p : Fin 512) (f : Fin 4096), j = ix2 p f := ⟨j 0, j 1, eq_ix2 j⟩
  obtain ⟨e0, e1, e2, e3, e4, e5, e6, e7⟩ := block_indices t
  have hlt : win0_3.index t (0 : Fin 2) * 512 + p.val < 8192 := by have := p.isLt; omega
  have hI : ((cfg0.win 3).blk t).view.emb (ix2 p f) = ix2 (⟨win0_3.index t (0 : Fin 2) * 512 + p.val, hlt⟩ : Fin 8192) f := by
    refine funext fun a => Fin.ext ?_
    match a with
    | ⟨0, _⟩ => show win0_3.index t (0 : Fin 2) * 512 + 1 * p.val = win0_3.index t (0 : Fin 2) * 512 + p.val; omega
    | ⟨1, _⟩ => show win0_3.index t (1 : Fin 2) * 4096 + 1 * f.val = f.val; omega
  show k0_pay1 (F := Ideal) (iblk m c 0 t) (iblk m c 1 t) (iblk m c 2 t) (iblk m c 0 t) (ix2 p f)
    = Cert.FastWeights.factored _ _ _ (((cfg0.win 3).blk t).view.emb (ix2 p f))
  rw [hI]
  exact point_value _ _ _ (iblk m c 0 t) (iblk m c 1 t) (iblk m c 2 t) _ p f
    (fun d => read_x m c t p d _ rfl) (fun r d => read_ut m c t r d) (fun r d => read_vt m c t r d)

/-- An index of the result array is in point t's block iff each coordinate is in the block's range on its axis. -/
theorem mem_block (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v0).slice (win0_3.rect t)).set ↔ _
  rw [View.set_slice_whole, Rect.mem_set_unit]
  exact Iff.rfl

/-- THE BLOCKS FILL THE ARRAY: row P is in the block of the point whose row block is P / 512. -/
theorem blocks_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- THE ARRAY after the run is the factored arrangement of the three argument arrays. -/
theorem result_array (c : Dev nD) : (dats m 0 c).arrAt 3 cfg0.N
    = Cert.FastWeights.factored (m ((c : Thread nD τ).loc main_arg0)) (m ((c : Thread nD τ).loc main_arg1)) (m ((c : Thread nD τ).loc main_arg2)) :=
  (dats m 0 c).arrAt_eq_of_cover 3 _ (fun t _ => flushed_eq m c t) blocks_cover

/-- The kernel's run: every weakly fair execution ends with the result array at the factored arrangement of the
    arguments, and the arguments as they were. -/
theorem run : θ_run defs (onTc (τ := τ) (main (F := Ideal))) ⟨m, fun _ => 0, ρ⟩ fun r => ∀ c : Dev nD,
      r.2.mem ((c : Thread nD τ).loc main_v0)
        = Cert.FastWeights.factored (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.ArrayValue

end
-- ==== Proof.lean ====
/-
  A rank-four fast-weight update, out = x + c · x · (U · Vᵀ), computed in factored form by a kernel over sixteen row
  blocks, against the same update computed with the 4096 × 4096 matrix U · Vᵀ formed whole.

  The kernel (read at the extended reals, where a change of float format is the identity and a product accumulated
  into zero is the exact inner product) leaves in its result array, at (p, f),

      x(p, f) + c · Σ_r (Σ_d x(p, d) · U(d, r)) · V(f, r)          (Proof/RowBlockPayload, Proof/RowBlocks),

  and the reference leaves

      x(p, f) + c · Σ_d x(p, d) · (Σ_r U(d, r) · V(f, r))          (Proof/ReferenceDense).

  The constant c is the same 32-bit word on both sides and is never evaluated. The two double sums are the two
  groupings of one triple product; on the extended reals they agree where the entries are real numbers, because only
  there does a product distribute over a sum (Proof/FastWeightSpec). That every entry is real is what the
  precondition states: each array's entries compare below +∞ in absolute value (Proof/FiniteEntries). So the algebraic
  claim uses its precondition, through the interchange of two finite sums over the reals.

  The three frame claims are the programs' runs with the values dropped; the idealized kernel is the kernel's own text
  read at the extended reals, so there is nothing to preserve beyond that.
-/
import proofs.«110024_j82094004896067_2_alg».proof.Defs
import proofs.«110024_j82094004896067_2_alg».proof.Proof.Gen.Kernel
import proofs.«110024_j82094004896067_2_alg».proof.Proof.Gen.Kernel.Frame
import proofs.«110024_j82094004896067_2_alg».proof.Proof.Gen.KernelIdeal
import proofs.«110024_j82094004896067_2_alg».proof.Proof.Gen.KernelIdeal.Frame
import proofs.«110024_j82094004896067_2_alg».proof.Proof.Gen.ReferenceIdeal
import proofs.«110024_j82094004896067_2_alg».proof.Proof.Gen.ReferenceIdeal.Run
import proofs.«110024_j82094004896067_2_alg».proof.Proof.Gen.ReferenceIdeal.Read
import proofs.«110024_j82094004896067_2_alg».proof.Proof.Gen.Pre_finite_inputs
import proofs.«110024_j82094004896067_2_alg».proof.Proof.FastWeightSpec
import proofs.«110024_j82094004896067_2_alg».proof.Proof.FiniteEntries
import proofs.«110024_j82094004896067_2_alg».proof.Proof.ReferenceDense
import proofs.«110024_j82094004896067_2_alg».proof.Proof.RowBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the factored arrangement of the kernel's arguments: the kernel block by block, the
    reference because its dense arrangement equals the factored one where the entries are real, which the precondition
    gives. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.DenseValue.result_eq_dense,
    (hagree c).1, (hagree c).2.1, (hagree c).2.2]
  obtain ⟨hx, hu, hv⟩ := Cert.FiniteEntries.entries_real _ _ _ (hpre c)
  exact (Cert.FastWeights.factored_eq_dense _ _ _ hx hu hv).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
